-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S8 : S_.BroadcastsInDim S8 (![] : Fin 0 → Fin S8.rank)
  reducesTo_S8_S_d0 : S8.ReducesTo [0] S_
  bcast_S_S3072x8 : S_.BroadcastsInDim S3072x8 (![] : Fin 0 → Fin S3072x8.rank)
  reducesTo_S3072x8_S_d0_1 : S3072x8.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x3072 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x2048x768 .f32) (main_arg1 : FVec F S8 .f32) (main_arg2 : FVec F S3072x8 .f32) (main_arg3 : FVec F S3072 .f32) (main_arg4 : FVec F S768x3072 .f32) (main_arg5 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S3072x8 .f32 := Host.absf main_arg2
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x2048x8 : Shape := ⟨3, ![8, 2048, 8]⟩
abbrev S16384x8 : Shape := ⟨2, ![16384, 8]⟩
abbrev S1x8 : Shape := ⟨2, ![1, 8]⟩
abbrev S8x3072 : Shape := ⟨2, ![8, 3072]⟩
abbrev S1x3072 : Shape := ⟨2, ![1, 3072]⟩
abbrev S3072x768 : Shape := ⟨2, ![3072, 768]⟩
abbrev S1x768 : Shape := ⟨2, ![1, 768]⟩
abbrev S16384x768 : Shape := ⟨2, ![16384, 768]⟩
abbrev S512x8 : Shape := ⟨2, ![512, 8]⟩
abbrev S512x768 : Shape := ⟨2, ![512, 768]⟩
abbrev S512x3072 : Shape := ⟨2, ![512, 3072]⟩

abbrev nBuf : Space → Nat
  | .hbm => 17
  | .vmem => 9
  | .smem => 0
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x2048x8, .f32⟩
  | .hbm, ⟨7, _⟩ => ⟨S16384x8, .f32⟩
  | .hbm, ⟨8, _⟩ => ⟨S1x8, .f32⟩
  | .hbm, ⟨9, _⟩ => ⟨S8x3072, .f32⟩
  | .hbm, ⟨10, _⟩ => ⟨S8x3072, .bf16⟩
  | .hbm, ⟨11, _⟩ => ⟨S1x3072, .f32⟩
  | .hbm, ⟨12, _⟩ => ⟨S3072x768, .f32⟩
  | .hbm, ⟨13, _⟩ => ⟨S3072x768, .bf16⟩
  | .hbm, ⟨14, _⟩ => ⟨S1x768, .f32⟩
  | .hbm, ⟨15, _⟩ => ⟨S16384x768, .f32⟩
  | .hbm, ⟨16, _⟩ => ⟨S8x2048x768, .f32⟩
  | .local _ .vmem, ⟨0, _⟩ => ⟨S512x8, .f32⟩
  | .local _ .vmem, ⟨1, _⟩ => ⟨S512x8, .f32⟩
  | .local _ .vmem, ⟨2, _⟩ => ⟨S1x8, .f32⟩
  | .local _ .vmem, ⟨3, _⟩ => ⟨S8x3072, .bf16⟩
  | .local _ .vmem, ⟨4, _⟩ => ⟨S1x3072, .f32⟩
  | .local _ .vmem, ⟨5, _⟩ => ⟨S3072x768, .bf16⟩
  | .local _ .vmem, ⟨6, _⟩ => ⟨S1x768, .f32⟩
  | .local _ .vmem, ⟨7, _⟩ => ⟨S512x768, .f32⟩
  | .local _ .vmem, ⟨8, _⟩ => ⟨S512x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8x2048x768_S8x2048x8_0_0_0 : S8x2048x768.Slices ![0, 0, 0] S8x2048x8
  shapeCasts_S8x2048x8_S16384x8 : S8x2048x8.ShapeCasts S16384x8
  shapeCasts_S8_S1x8 : S8.ShapeCasts S1x8
  transposes_S3072x8_S8x3072_1_0 : S3072x8.Transposes [1, 0] S8x3072
  bitsLt_bf16_f32 : FTy.bits .bf16 < FTy.bits .f32
  shapeCasts_S3072_S1x3072 : S3072.ShapeCasts S1x3072
  transposes_S768x3072_S3072x768_1_0 : S768x3072.Transposes [1, 0] S3072x768
  shapeCasts_S768_S1x768 : S768.ShapeCasts S1x768
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S8x3072_S8x3072_0_0 : ∀ a, (![0, 0] : Fin 2 → Nat) a + S8x3072.size a ≤ S8x3072.size a
  h_S8x3072 : 0 < S8x3072.numel
  shapeCasts_S8x3072_S8x3072 : S8x3072.ShapeCasts S8x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S16384x768_S8x2048x768 : S16384x768.ShapeCasts S8x2048x768
  dot_S512x8_S8x3072_S512x3072_1_0_0_1_n_n_wf : DotDims.WF S512x8 S8x3072 S512x3072 [1] [0] [0] [1] [] []
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S16384x8.size a
  hwx0_0 : ∀ i : grid0.Coords, EltTy.bits .f32 = 32 ∨ (Rect.block (s := S16384x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x3072.size a ≤ S8x3072.size a
  hwx0_2 : ∀ i : grid0.Coords, EltTy.bits .bf16 = 32 ∨ (Rect.block (s := S8x3072) S8x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x768.size a ≤ S3072x768.size a
  hwx0_4 : ∀ i : grid0.Coords, EltTy.bits .bf16 = 32 ∨ (Rect.block (s := S3072x768) S3072x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S16384x768.size a
  hwx0_6 : ∀ i : grid0.Coords, EltTy.bits .f32 = 32 ∨ (Rect.block (s := S16384x768) S512x768.size (cc0_transform_6 i) (hinb0_6 i)).WholeWords (EltTy.packing .f32)

variable [Facts₀]

def dot_S512x8_S8x3072_S512x3072_1_0_0_1_n_n : DotDims S512x8 S8x3072 S512x3072 where
  lhsContracting := [1]
  rhsContracting := [0]
  lhsNonContracting := [0]
  rhsNonContracting := [1]
  lhsBatch := []
  rhsBatch := []
  wf := dot_S512x8_S8x3072_S512x3072_1_0_0_1_n_n_wf
def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S3072x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x2048x8 : Shape := ⟨3, ![8, 2048, 8]⟩
abbrev S1x1x8 : Shape := ⟨3, ![1, 1, 8]⟩
abbrev S8x2048x3072 : Shape := ⟨3, ![8, 2048, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x2048x8, .f32⟩
  | .hbm, ⟨7, _⟩ => ⟨S1x1x8, .f32⟩
  | .hbm, ⟨8, _⟩ => ⟨S8x2048x8, .f32⟩
  | .hbm, ⟨9, _⟩ => ⟨S8x2048x8, .f32⟩
  | .hbm, ⟨10, _⟩ => ⟨S8x2048x8, .f32⟩
  | .hbm, ⟨11, _⟩ => ⟨S8x2048x3072, .f32⟩
  | .hbm, ⟨12, _⟩ => ⟨S1x1x3072, .f32⟩
  | .hbm, ⟨13, _⟩ => ⟨S8x2048x3072, .f32⟩
  | .hbm, ⟨14, _⟩ => ⟨S8x2048x3072, .f32⟩
  | .hbm, ⟨15, _⟩ => ⟨S_, .f32⟩
  | .hbm, ⟨16, _⟩ => ⟨S8x2048x3072, .f32⟩
  | .hbm, ⟨17, _⟩ => ⟨S8x2048x3072, .f32⟩
  | .hbm, ⟨18, _⟩ => ⟨S8x2048x768, .f32⟩
  | .hbm, ⟨19, _⟩ => ⟨S1x1x768, .f32⟩
  | .hbm, ⟨20, _⟩ => ⟨S8x2048x768, .f32⟩
  | .hbm, ⟨21, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  slices_S8x2048x768_S8x2048x8_0_0_0 : S8x2048x768.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  bcast_S_S8x2048x3072 : S_.BroadcastsInDim S8x2048x3072 (![] : Fin 0 → Fin S8x2048x3072.rank)
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  dot_S8x2048x8_S3072x8_S8x2048x3072_2_1_01_0_n_n_wf : DotDims.WF S8x2048x8 S3072x8 S8x2048x3072 [2] [1] [0, 1] [0] [] []
  dot_S8x2048x3072_S768x3072_S8x2048x768_2_1_01_0_n_n_wf : DotDims.WF S8x2048x3072 S768x3072 S8x2048x768 [2] [1] [0, 1] [0] [] []

variable [Facts₀]

def dot_S8x2048x8_S3072x8_S8x2048x3072_2_1_01_0_n_n : DotDims S8x2048x8 S3072x8 S8x2048x3072 where
  lhsContracting := [2]
  rhsContracting := [1]
  lhsNonContracting := [0, 1]
  rhsNonContracting := [0]
  lhsBatch := []
  rhsBatch := []
  wf := dot_S8x2048x8_S3072x8_S8x2048x3072_2_1_01_0_n_n_wf
def dot_S8x2048x3072_S768x3072_S8x2048x768_2_1_01_0_n_n : DotDims S8x2048x3072 S768x3072 S8x2048x768 where
  lhsContracting := [2]
  rhsContracting := [1]
  lhsNonContracting := [0, 1]
  rhsNonContracting := [0]
  lhsBatch := []
  rhsBatch := []
  wf := dot_S8x2048x3072_S768x3072_S8x2048x768_2_1_01_0_n_n_wf

class Facts : Prop extends Facts₀ where

variable [Facts]
-- ==== Proof.Spec.lean ====
/-
  The function both programs compute, stated once over plain arrays of extended reals.

  A token is a pair (batch b, position s). Its first eight input features are turned into
  eight measurements  cos (x[b,s,q] + phi[q]);  a first affine layer and a clamp at zero give
  3072 hidden values  h[f] = max (Σ_q meas[q] · w1[f,q] + b1[f]) 0;  a second affine layer gives
  the 768 outputs  Σ_f h[f] · w2[e,f] + b2[e].

  Two spellings are given. `rows` is the layer on `n` token rows over two-dimensional arrays: the
  inputs as an n × 8 matrix, the weights already transposed (8 × 3072 and 3072 × 768) and the
  three vectors as one-row matrices. `tok` is the layer read at (b, s, e) over the arrays as the
  caller passes them. `rows_eq_tok` says they agree when the two-dimensional arrays are the
  caller's arrays re-laid: row r is token (r / 2048, r % 2048), the weights are transposed and
  the vectors are rows. Nothing here needs finiteness: both sides are the same sums of the same
  products in the same order, so the equation is a congruence.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The layer on `n` token rows, over two-dimensional arrays: entry (r, e) of the result. -/
def rows {n : Nat} (xq : (⟨2, ![n, 8]⟩ : Shape).Idx → EReal) (ph : (⟨2, ![1, 8]⟩ : Shape).Idx → EReal)
    (w1t : (⟨2, ![8, 3072]⟩ : Shape).Idx → EReal) (b1r : (⟨2, ![1, 3072]⟩ : Shape).Idx → EReal)
    (w2t : (⟨2, ![3072, 768]⟩ : Shape).Idx → EReal) (b2r : (⟨2, ![1, 768]⟩ : Shape).Idx → EReal)
    (r : Fin n) (e : Fin 768) : EReal :=
  (∑ f : Fin 3072,
      max ((∑ q : Fin 8, Ideal.cos (xq (ix2 r q) + ph (ix2 (0 : Fin 1) q)) * w1t (ix2 q f)) + b1r (ix2 (0 : Fin 1) f))
          (Ideal.ofBits .f32 0x00000000#32)
        * w2t (ix2 f e))
    + b2r (ix2 (0 : Fin 1) e)

/-- Token (b, s) as a row of the 16384-row matrices: the batch-major position. -/
abbrev row (b : Fin 8) (s : Fin 2048) : Fin 16384 := ⟨b.val * 2048 + s.val, by have := b.isLt; have := s.isLt; omega⟩

/-- Feature `q < 8` as one of the 768 input features. -/
abbrev feat (q : Fin 8) : Fin 768 := ⟨q.val, by have := q.isLt; omega⟩

/-- The layer at token (b, s) and output feature e, over the arrays as the caller passes them. -/
def tok (x : (⟨3, ![8, 2048, 768]⟩ : Shape).Idx → EReal) (phi : (⟨1, ![8]⟩ : Shape).Idx → EReal)
    (w1 : (⟨2, ![3072, 8]⟩ : Shape).Idx → EReal) (b1 : (⟨1, ![3072]⟩ : Shape).Idx → EReal)
    (w2 : (⟨2, ![768, 3072]⟩ : Shape).Idx → EReal) (b2 : (⟨1, ![768]⟩ : Shape).Idx → EReal)
    (b : Fin 8) (s : Fin 2048) (e : Fin 768) : EReal :=
  (∑ f : Fin 3072,
      max ((∑ q : Fin 8, Ideal.cos (x (ix3 b s (feat q)) + phi (ix1 q)) * w1 (ix2 f q)) + b1 (ix1 f))
          (Ideal.ofBits .f32 0x00000000#32)
        * w2 (ix2 e f))
    + b2 (ix1 e)

/-- The whole result array: `tok` at every index. -/
def G (x : (⟨3, ![8, 2048, 768]⟩ : Shape).Idx → EReal) (phi : (⟨1, ![8]⟩ : Shape).Idx → EReal)
    (w1 : (⟨2, ![3072, 8]⟩ : Shape).Idx → EReal) (b1 : (⟨1, ![3072]⟩ : Shape).Idx → EReal)
    (w2 : (⟨2, ![768, 3072]⟩ : Shape).Idx → EReal) (b2 : (⟨1, ![768]⟩ : Shape).Idx → EReal) :
    (⟨3, ![8, 2048, 768]⟩ : Shape).Idx → EReal :=
  fun i => tok x phi w1 b1 w2 b2 (i 0) (i 1) (i 2)

theorem G_apply (x : (⟨3, ![8, 2048, 768]⟩ : Shape).Idx → EReal) (phi : (⟨1, ![8]⟩ : Shape).Idx → EReal)
    (w1 : (⟨2, ![3072, 8]⟩ : Shape).Idx → EReal) (b1 : (⟨1, ![3072]⟩ : Shape).Idx → EReal)
    (w2 : (⟨2, ![768, 3072]⟩ : Shape).Idx → EReal) (b2 : (⟨1, ![768]⟩ : Shape).Idx → EReal)
    (b : Fin 8) (s : Fin 2048) (e : Fin 768) :
    G x phi w1 b1 w2 b2 (ix3 b s e) = tok x phi w1 b1 w2 b2 b s e := rfl

/-- `rows` at (r, e) reads the input matrix on row r only, and the other five arrays at the
    entries its sums name: arrays that agree there give the same value, whatever their row counts. -/
theorem rows_congr {n n' : Nat} (xq : (⟨2, ![n, 8]⟩ : Shape).Idx → EReal) (xq' : (⟨2, ![n', 8]⟩ : Shape).Idx → EReal)
    (ph ph' : (⟨2, ![1, 8]⟩ : Shape).Idx → EReal)
    (w1t w1t' : (⟨2, ![8, 3072]⟩ : Shape).Idx → EReal) (b1r b1r' : (⟨2, ![1, 3072]⟩ : Shape).Idx → EReal)
    (w2t w2t' : (⟨2, ![3072, 768]⟩ : Shape).Idx → EReal) (b2r b2r' : (⟨2, ![1, 768]⟩ : Shape).Idx → EReal)
    (r : Fin n) (r' : Fin n') (e : Fin 768)
    (hx : ∀ q : Fin 8, xq (ix2 r q) = xq' (ix2 r' q))
    (hph : ∀ q : Fin 8, ph (ix2 (0 : Fin 1) q) = ph' (ix2 (0 : Fin 1) q))
    (hw1 : ∀ (q : Fin 8) (f : Fin 3072), w1t (ix2 q f) = w1t' (ix2 q f))
    (hb1 : ∀ f : Fin 3072, b1r (ix2 (0 : Fin 1) f) = b1r' (ix2 (0 : Fin 1) f))
    (hw2 : ∀ (f : Fin 3072) (e : Fin 768), w2t (ix2 f e) = w2t' (ix2 f e))
    (hb2 : ∀ e : Fin 768, b2r (ix2 (0 : Fin 1) e) = b2r' (ix2 (0 : Fin 1) e)) :
    rows xq ph w1t b1r w2t b2r r e = rows xq' ph' w1t' b1r' w2t' b2r' r' e := by
  unfold rows
  simp only [hx, hph, hw1, hb1, hw2, hb2]

/-- The two spellings agree when the two-dimensional arrays are the caller's arrays re-laid. -/
theorem rows_eq_tok {n : Nat} (xq : (⟨2, ![n, 8]⟩ : Shape).Idx → EReal) (ph : (⟨2, ![1, 8]⟩ : Shape).Idx → EReal)
    (w1t : (⟨2, ![8, 3072]⟩ : Shape).Idx → EReal) (b1r : (⟨2, ![1, 3072]⟩ : Shape).Idx → EReal)
    (w2t : (⟨2, ![3072, 768]⟩ : Shape).Idx → EReal) (b2r : (⟨2, ![1, 768]⟩ : Shape).Idx → EReal)
    (x : (⟨3, ![8, 2048, 768]⟩ : Shape).Idx → EReal) (phi : (⟨1, ![8]⟩ : Shape).Idx → EReal)
    (w1 : (⟨2, ![3072, 8]⟩ : Shape).Idx → EReal) (b1 : (⟨1, ![3072]⟩ : Shape).Idx → EReal)
    (w2 : (⟨2, ![768, 3072]⟩ : Shape).Idx → EReal) (b2 : (⟨1, ![768]⟩ : Shape).Idx → EReal)
    (r : Fin n) (b : Fin 8) (s : Fin 2048) (e : Fin 768)
    (hx : ∀ q : Fin 8, xq (ix2 r q) = x (ix3 b s (feat q)))
    (hph : ∀ q : Fin 8, ph (ix2 (0 : Fin 1) q) = phi (ix1 q))
    (hw1 : ∀ (q : Fin 8) (f : Fin 3072), w1t (ix2 q f) = w1 (ix2 f q))
    (hb1 : ∀ f : Fin 3072, b1r (ix2 (0 : Fin 1) f) = b1 (ix1 f))
    (hw2 : ∀ (f : Fin 3072) (e : Fin 768), w2t (ix2 f e) = w2 (ix2 e f))
    (hb2 : ∀ e : Fin 768, b2r (ix2 (0 : Fin 1) e) = b2 (ix1 e)) :
    rows xq ph w1t b1r w2t b2r r e = tok x phi w1 b1 w2 b2 b s e := by
  unfold rows tok
  simp only [hx, hph, hw1, hb1, hw2, hb2]

end Cert.Mlp

end
-- ==== Proof.RefValue.lean ====
/-
  The reference program computes `G`.

  Its last stage is a sum of a contraction over the 3072 hidden values and a broadcast bias; the
  hidden values are a clamp at zero of a contraction over the eight measurements plus a broadcast
  bias; a measurement is the cosine of a sliced input plus a broadcast angle. Read at an index
  (b, s, e), every stage reads its operands at an index whose coordinates are among b, s, e and
  the two summation variables, so the whole term is `tok` at (b, s, e) once those indices are
  named by their coordinates.
-/
import proofs.«174003_j65481071398154_2_alg».proof.Proof.Gen.ReferenceIdeal.Read
import proofs.«174003_j65481071398154_2_alg».proof.Proof.Spec

noncomputable section

namespace Cert.Mlp.Ref

open Cert.ReferenceIdeal Cert.ReferenceIdeal.Read Idealize.ShloMosaic Idealize.ShloMosaic.ValueIdx

/-! The stages' index functions, at an index given by its coordinates. -/

theorem ix_x (b : Fin 8) (s : Fin 2048) (e : Fin 768) (k : Fin 3072) (q : Fin 8) :
    idx_main_v0 (lidx_main_v5 (lidx_main_v10 (ix3 b s e) k) q) = ix3 b s (feat q) :=
  funext fun a => Fin.ext (by match a with | ⟨0, _⟩ => rfl | ⟨1, _⟩ => rfl | ⟨2, _⟩ => rfl)

theorem ix_phi (b : Fin 8) (s : Fin 2048) (e : Fin 768) (k : Fin 3072) (q : Fin 8) :
    idx_main_v1 (idx_main_v2 (lidx_main_v5 (lidx_main_v10 (ix3 b s e) k) q)) = ix1 q :=
  funext fun a => Fin.ext (by match a with | ⟨0, _⟩ => rfl)

theorem ix_w1 (b : Fin 8) (s : Fin 2048) (e : Fin 768) (k : Fin 3072) (q : Fin 8) :
    ridx_main_v5 (lidx_main_v10 (ix3 b s e) k) q = ix2 k q :=
  funext fun a => Fin.ext (by match a with | ⟨0, _⟩ => rfl | ⟨1, _⟩ => rfl)

theorem ix_b1 (b : Fin 8) (s : Fin 2048) (e : Fin 768) (k : Fin 3072) :
    idx_main_v6 (idx_main_v7 (lidx_main_v10 (ix3 b s e) k)) = ix1 k :=
  funext fun a => Fin.ext (by match a with | ⟨0, _⟩ => rfl)

theorem ix_w2 (b : Fin 8) (s : Fin 2048) (e : Fin 768) (k : Fin 3072) :
    ridx_main_v10 (ix3 b s e) k = ix2 e k :=
  funext fun a => Fin.ext (by match a with | ⟨0, _⟩ => rfl | ⟨1, _⟩ => rfl)

theorem ix_b2 (b : Fin 8) (s : Fin 2048) (e : Fin 768) :
    idx_main_v11 (idx_main_v12 (ix3 b s e)) = ix1 e :=
  funext fun a => Fin.ext (by match a with | ⟨0, _⟩ => rfl)

/-- The reference's last stage, as a function of the six arguments, is `G`. -/
theorem stage_eq (x0 : (⟨S8x2048x768, .f32⟩ : BufTy).Contents (Elt Ideal)) (x1 : (⟨S8, .f32⟩ : BufTy).Contents (Elt Ideal))
    (x2 : (⟨S3072x8, .f32⟩ : BufTy).Contents (Elt Ideal)) (x3 : (⟨S3072, .f32⟩ : BufTy).Contents (Elt Ideal))
    (x4 : (⟨S768x3072, .f32⟩ : BufTy).Contents (Elt Ideal)) (x5 : (⟨S768, .f32⟩ : BufTy).Contents (Elt Ideal)) :
    val_main_v13 (F := Ideal) x0 x1 x2 x3 x4 x5 = G x0 x1 x2 x3 x4 x5 := by
  funext i
  obtain ⟨b, s, e, rfl⟩ : ∃ (b : Fin 8) (s : Fin 2048) (e : Fin 768), i = ix3 b s e := ⟨i 0, i 1, i 2, eq_ix3 i⟩
  rw [G_apply, val_main_v13_apply, val_main_v10_apply, val_main_v12_apply, val_main_v11_apply, ix_b2]
  unfold tok
  simp only [val_main_v9_apply, val_main_v8_apply, val_main_v5_apply, val_main_v7_apply, val_main_v6_apply,
    val_main_call0_v0_apply, val_main_call0_cst_apply, val_main_v4_apply, val_main_v3_apply, val_main_v0_apply,
    val_main_v2_apply, val_main_v1_apply, ix_x, ix_phi, ix_w1, ix_b1, ix_w2,
    Ideal.addf_def, Ideal.maximumf_def, Ideal.hostUnary_cos_def, Ideal.ofBits_def]

end Cert.Mlp.Ref

end
-- ==== Proof.HostSide.lean ====
/-
  What the launch finds in the arrays its windows stage, in terms of the caller's arrays.

  Before the launch the program slices the first eight features off the input and lays the 8 × 2048
  tokens out as 16384 rows; writes the angles and the two biases as one-row matrices; and
  transposes the two weight matrices (the change of float format that follows is the identity on
  extended reals). Read at an index: row `row b s`, column q of the input matrix is the input at
  (b, s, q); the one-row matrices at (0, j) are the vectors at j; the transposed weights at (i, j)
  are the weights at (j, i).
-/
import proofs.«174003_j65481071398154_2_alg».proof.Proof.Gen.KernelIdeal.Frame
import proofs.«174003_j65481071398154_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.Mlp.Host

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The six staged arrays as terms of the arguments -/

theorem V_v1 (c : Dev nD) : V m c main_v1
    = (shapeCast S16384x8 (extractStridedSlice S8x2048x8 ![0, 0, 0] (m ((c : Thread nD τ).loc main_arg0)) slices_S8x2048x768_S8x2048x8_0_0_0)
        shapeCasts_S8x2048x8_S16384x8 : S16384x8.Idx → EReal) := by
  show StableHlo.after (hostOps0 (F := Ideal)) (fun b => m (c, b)) (Proc.devRef .tc main_v1) = _
  after_results
  rfl

theorem V_v2 (c : Dev nD) : V m c main_v2
    = (shapeCast S1x8 (m ((c : Thread nD τ).loc main_arg1)) shapeCasts_S8_S1x8 : S1x8.Idx → EReal) := by
  show StableHlo.after (hostOps0 (F := Ideal)) (fun b => m (c, b)) (Proc.devRef .tc main_v2) = _
  after_results
  rfl

theorem V_v4 (c : Dev nD) : V m c main_v4
    = (transpose S8x3072 [1, 0] (m ((c : Thread nD τ).loc main_arg2)) transposes_S3072x8_S8x3072_1_0 : S8x3072.Idx → EReal) := by
  show StableHlo.after (hostOps0 (F := Ideal)) (fun b => m (c, b)) (Proc.devRef .tc main_v4) = _
  after_results
  rfl

theorem V_v5 (c : Dev nD) : V m c main_v5
    = (shapeCast S1x3072 (m ((c : Thread nD τ).loc main_arg3)) shapeCasts_S3072_S1x3072 : S1x3072.Idx → EReal) := by
  show StableHlo.after (hostOps0 (F := Ideal)) (fun b => m (c, b)) (Proc.devRef .tc main_v5) = _
  after_results
  rfl

theorem V_v7 (c : Dev nD) : V m c main_v7
    = (transpose S3072x768 [1, 0] (m ((c : Thread nD τ).loc main_arg4)) transposes_S768x3072_S3072x768_1_0 : S3072x768.Idx → EReal) := by
  show StableHlo.after (hostOps0 (F := Ideal)) (fun b => m (c, b)) (Proc.devRef .tc main_v7) = _
  after_results
  rfl

theorem V_v8 (c : Dev nD) : V m c main_v8
    = (shapeCast S1x768 (m ((c : Thread nD τ).loc main_arg5)) shapeCasts_S768_S1x768 : S1x768.Idx → EReal) := by
  show StableHlo.after (hostOps0 (F := Ideal)) (fun b => m (c, b)) (Proc.devRef .tc main_v8) = _
  after_results
  rfl

/-! ## The same, at an index -/

/-- Row `row b s`, column q of the input matrix is the input at token (b, s), feature q. -/
theorem x_at (c : Dev nD) (b : Fin 8) (s : Fin 2048) (q : Fin 8) :
    V m c main_v1 (ix2 (Cert.Mlp.row b s) q) = m ((c : Thread nD τ).loc main_arg0) (ix3 b s (Cert.Mlp.feat q)) := by
  rw [V_v1]
  refine (shapeCast_apply _ shapeCasts_S8x2048x8_S16384x8 (ix2 (Cert.Mlp.row b s) q) (ix3 b s q) ?_).trans ?_
  · rw [Shape.rowMajor_val_three, Shape.rowMajor_val_two]
    show (b.val * 2048 + s.val) * 8 + q.val = (b.val * 2048 + s.val) * 8 + q.val
    rfl
  · exact extractStridedSlice_apply ![0, 0, 0] _ slices_S8x2048x768_S8x2048x8_0_0_0 (ix3 b s q) (ix3 b s (Cert.Mlp.feat q))
      (fun a => match a with
        | ⟨0, _⟩ => by show b.val = 0 + b.val; omega
        | ⟨1, _⟩ => by show s.val = 0 + s.val; omega
        | ⟨2, _⟩ => by show q.val = 0 + q.val; omega)

theorem phi_at (c : Dev nD) (q : Fin 8) :
    V m c main_v2 (ix2 (0 : Fin 1) q) = m ((c : Thread nD τ).loc main_arg1) (ix1 q) := by
  rw [V_v2]
  exact shapeCast_a_1a_apply _ shapeCasts_S8_S1x8 (0 : Fin 1) q

theorem w1_at (c : Dev nD) (q : Fin 8) (f : Fin 3072) :
    V m c main_v4 (ix2 q f) = m ((c : Thread nD τ).loc main_arg2) (ix2 f q) := by
  rw [V_v4]
  exact transpose_ix2_apply _ transposes_S3072x8_S8x3072_1_0 q f

theorem b1_at (c : Dev nD) (f : Fin 3072) :
    V m c main_v5 (ix2 (0 : Fin 1) f) = m ((c : Thread nD τ).loc main_arg3) (ix1 f) := by
  rw [V_v5]
  exact shapeCast_a_1a_apply _ shapeCasts_S3072_S1x3072 (0 : Fin 1) f

theorem w2_at (c : Dev nD) (f : Fin 3072) (e : Fin 768) :
    V m c main_v7 (ix2 f e) = m ((c : Thread nD τ).loc main_arg4) (ix2 e f) := by
  rw [V_v7]
  exact transpose_ix2_apply _ transposes_S768x3072_S3072x768_1_0 f e

theorem b2_at (c : Dev nD) (e : Fin 768) :
    V m c main_v8 (ix2 (0 : Fin 1) e) = m ((c : Thread nD τ).loc main_arg5) (ix1 e) := by
  rw [V_v8]
  exact shapeCast_a_1a_apply _ shapeCasts_S768_S1x768 (0 : Fin 1) e

end Cert.Mlp.Host

end
-- ==== Proof.Payload.lean ====
/-
  What the kernel body stores, read at an entry.

  The body loads an input block of 512 token rows by 8 features and five whole arrays (the angles
  as a row, the first weights 8 × 3072, the first bias as a row, the second weights 3072 × 768, the
  second bias as a row), and stores one 512 × 768 block. Read at (p, e) that block is `rows` of the
  six loaded arrays at row p and output feature e: each matrix product into a zero accumulator is
  the plain sum over its one contracted axis, the two bias rows and the angle row are broadcast over
  the 512 rows, a shape cast to the same shape and a change of float format do nothing to an entry.
-/
import proofs.«174003_j65481071398154_2_alg».proof.Proof.Gen.KernelIdeal.Skeleton
import proofs.«174003_j65481071398154_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Mlp.Body

open Cert.KernelIdeal Cert.KernelIdeal.Gen Idealize.ShloMosaic Idealize.ShloMosaic.ValueIdx

/-- The first product (512 × 8 by 8 × 3072) into a zero accumulator, at (p, f): the sum over the
    eight measurements. -/
theorem dot1_apply (L : FVec Ideal S512x8 .bf16) (R : FVec Ideal S8x3072 .bf16) (p : Fin 512) (f : Fin 3072) :
    matmul dot_S512x8_S8x3072_S512x3072_1_0_0_1_n_n none L R (constant (F := Ideal) S512x3072 .f32 0x00000000#32) (ix2 p f)
      = ∑ q : Fin 8, L (ix2 p q) * R (ix2 q f) := by
  simp only [matmul]
  rw [Ideal.matmul_constant_zero_apply, ← Equiv.sum_comp (contrEquiv1 dot_S512x8_S8x3072_S512x3072_1_0_0_1_n_n 8 rfl rfl).symm]
  refine Finset.sum_congr rfl fun k _ => ?_
  have hk := contrEquiv1_symm_val dot_S512x8_S8x3072_S512x3072_1_0_0_1_n_n 8 rfl rfl k
  have el : dot_S512x8_S8x3072_S512x3072_1_0_0_1_n_n.lhsIdx (ix2 p f) ((contrEquiv1 dot_S512x8_S8x3072_S512x3072_1_0_0_1_n_n 8 rfl rfl).symm k) = ix2 p k :=
    funext fun a => Fin.ext (by
      match a with
      | ⟨0, _⟩ =>
        show (dot_S512x8_S8x3072_S512x3072_1_0_0_1_n_n.lhsIdx (ix2 p f) _ 0).val = p.val
        unfold DotDims.lhsIdx
        rw [dif_neg (show ¬(0 : Fin S512x8.rank) ∈ dot_S512x8_S8x3072_S512x3072_1_0_0_1_n_n.lhsBatch by decide), dif_pos (show (0 : Fin S512x8.rank) ∈ dot_S512x8_S8x3072_S512x3072_1_0_0_1_n_n.lhsNonContracting by decide)]
        rfl
      | ⟨1, _⟩ => exact (dot_S512x8_S8x3072_S512x3072_1_0_0_1_n_n.lhsIdx_val_of_single rfl (ix2 p f) _).trans hk)
  have er : dot_S512x8_S8x3072_S512x3072_1_0_0_1_n_n.rhsIdx (ix2 p f) ((contrEquiv1 dot_S512x8_S8x3072_S512x3072_1_0_0_1_n_n 8 rfl rfl).symm k) = ix2 k f :=
    funext fun a => Fin.ext (by
      match a with
      | ⟨0, _⟩ => exact (dot_S512x8_S8x3072_S512x3072_1_0_0_1_n_n.rhsIdx_val_of_single rfl (ix2 p f) _).trans hk
      | ⟨1, _⟩ =>
        show (dot_S512x8_S8x3072_S512x3072_1_0_0_1_n_n.rhsIdx (ix2 p f) _ 1).val = f.val
        unfold DotDims.rhsIdx
        rw [dif_neg (show ¬(1 : Fin S8x3072.rank) ∈ dot_S512x8_S8x3072_S512x3072_1_0_0_1_n_n.rhsBatch by decide), dif_pos (show (1 : Fin S8x3072.rank) ∈ dot_S512x8_S8x3072_S512x3072_1_0_0_1_n_n.rhsNonContracting by decide)]
        rfl)
  rw [el, er]

/-- The second product (512 × 3072 by 3072 × 768) into a zero accumulator, at (p, e): the sum over
    the 3072 hidden values. -/
theorem dot2_apply (L : FVec Ideal S512x3072 .bf16) (R : FVec Ideal S3072x768 .bf16) (p : Fin 512) (e : Fin 768) :
    matmul dot_S512x3072_S3072x768_S512x768_1_0_0_1_n_n none L R (constant (F := Ideal) S512x768 .f32 0x00000000#32) (ix2 p e)
      = ∑ f : Fin 3072, L (ix2 p f) * R (ix2 f e) := by
  simp only [matmul]
  rw [Ideal.matmul_constant_zero_apply, ← Equiv.sum_comp (contrEquiv1 dot_S512x3072_S3072x768_S512x768_1_0_0_1_n_n 3072 rfl rfl).symm]
  refine Finset.sum_congr rfl fun k _ => ?_
  have hk := contrEquiv1_symm_val dot_S512x3072_S3072x768_S512x768_1_0_0_1_n_n 3072 rfl rfl k
  have el : dot_S512x3072_S3072x768_S512x768_1_0_0_1_n_n.lhsIdx (ix2 p e) ((contrEquiv1 dot_S512x3072_S3072x768_S512x768_1_0_0_1_n_n 3072 rfl rfl).symm k) = ix2 p k :=
    funext fun a => Fin.ext (by
      match a with
      | ⟨0, _⟩ =>
        show (dot_S512x3072_S3072x768_S512x768_1_0_0_1_n_n.lhsIdx (ix2 p e) _ 0).val = p.val
        unfold DotDims.lhsIdx
        rw [dif_neg (show ¬(0 : Fin S512x3072.rank) ∈ dot_S512x3072_S3072x768_S512x768_1_0_0_1_n_n.lhsBatch by decide), dif_pos (show (0 : Fin S512x3072.rank) ∈ dot_S512x3072_S3072x768_S512x768_1_0_0_1_n_n.lhsNonContracting by decide)]
        rfl
      | ⟨1, _⟩ => exact (dot_S512x3072_S3072x768_S512x768_1_0_0_1_n_n.lhsIdx_val_of_single rfl (ix2 p e) _).trans hk)
  have er : dot_S512x3072_S3072x768_S512x768_1_0_0_1_n_n.rhsIdx (ix2 p e) ((contrEquiv1 dot_S512x3072_S3072x768_S512x768_1_0_0_1_n_n 3072 rfl rfl).symm k) = ix2 k e :=
    funext fun a => Fin.ext (by
      match a with
      | ⟨0, _⟩ => exact (dot_S512x3072_S3072x768_S512x768_1_0_0_1_n_n.rhsIdx_val_of_single rfl (ix2 p e) _).trans hk
      | ⟨1, _⟩ =>
        show (dot_S512x3072_S3072x768_S512x768_1_0_0_1_n_n.rhsIdx (ix2 p e) _ 1).val = e.val
        unfold DotDims.rhsIdx
        rw [dif_neg (show ¬(1 : Fin S3072x768.rank) ∈ dot_S512x3072_S3072x768_S512x768_1_0_0_1_n_n.rhsBatch by decide), dif_pos (show (1 : Fin S3072x768.rank) ∈ dot_S512x3072_S3072x768_S512x768_1_0_0_1_n_n.rhsNonContracting by decide)]
        rfl)
  rw [el, er]

/-- The stored block at (p, e) is `rows` of the six loaded arrays. -/
theorem pay_apply (x0 : Vec Ideal S512x8 .f32) (x1 : Vec Ideal S1x8 .f32) (x2 : Vec Ideal S8x3072 .bf16)
    (x3 : Vec Ideal S1x3072 .f32) (x4 : Vec Ideal S3072x768 .bf16) (x5 : Vec Ideal S1x768 .f32) (p : Fin 512) (e : Fin 768) :
    k0_pay1 (F := Ideal) x0 x1 x2 x3 x4 x5 (ix2 p e) = Cert.Mlp.rows x0 x1 x2 x3 x4 x5 p e := by
  unfold k0_pay1 Cert.Mlp.rows
  simp only [shapeCast_self]
  rw [addf_apply, dot2_apply, broadcastTo_1b_ab_apply]
  refine congrArg (· + x5 (ix2 (0 : Fin 1) e)) (Finset.sum_congr rfl fun f _ => ?_)
  rw [truncf_apply, maximumf_apply, addf_apply, dot1_apply, broadcastTo_1b_ab_apply, broadcast_apply]
  refine congrArg (fun z => max (z + x3 (ix2 (0 : Fin 1) f)) _ * x4 (ix2 f e)) (Finset.sum_congr rfl fun q _ => ?_)
  rw [truncf_apply]
  show Ideal.cos (x0 (ix2 p q) + broadcastTo S512x8 x1 broadcasts_S1x8_S512x8 (ix2 p q)) * x2 (ix2 q f) = _
  rw [broadcastTo_1b_ab_apply]

end Cert.Mlp.Body

end
-- ==== Proof.Blocks.lean ====
/-
  The 16384 × 768 array the launch leaves.

  The grid has 32 points. At point t the input window holds rows 512·t … 512·t + 511 of the input
  matrix, the five other input windows hold their whole arrays, and the output window's block is
  rows 512·t … 512·t + 511 of the output. So what point t writes back is that block of ONE array
  `Y`: `rows` of the six staged arrays at every (row, output feature). The 32 blocks tile the
  output — row r lies in the block of point r / 512 — so after the launch the output array is `Y`.
-/
import proofs.«174003_j65481071398154_2_alg».proof.Proof.Gen.KernelIdeal.Frame
import proofs.«174003_j65481071398154_2_alg».proof.Proof.Spec
import proofs.«174003_j65481071398154_2_alg».proof.Proof.Payload
import Idealize.ShloMosaic.Lib.Pipeline.Value
import Idealize.ShloMosaic.Lib.ValueIdx

noncomputable section

namespace Cert.Mlp.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The output matrix: the layer on all 16384 token rows, over the arrays the launch finds. -/
def Y (c : Dev nD) : S16384x768.Idx → EReal := fun i =>
  Cert.Mlp.rows (n := 16384) (V m c main_v1) (V m c main_v2) (V m c main_v4) (V m c main_v5) (V m c main_v7) (V m c main_v8) (i 0) (i 1)

theorem Y_apply (c : Dev nD) (r : Fin 16384) (e : Fin 768) :
    Y m c (ix2 r e) = Cert.Mlp.rows (n := 16384) (V m c main_v1) (V m c main_v2) (V m c main_v4) (V m c main_v5) (V m c main_v7) (V m c main_v8) r e := rfl

/-- The printed index maps over the 32 points: the input and output windows move one block of rows
    per point, the other five stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 32 := lt_of_lt_of_eq t.isLt N_0

/-- Row p of point t's block, as a row of the whole matrix. -/
abbrev rowAt (t : Fin cfg0.N) (p : Fin 512) : Fin 16384 := ⟨t.val * 512 + p.val, by have := t_lt t; have := p.isLt; omega⟩

/-! ## The input windows' blocks, read at an entry -/

theorem rd0 (c : Dev nD) (t : Fin cfg0.N) (p : Fin 512) (q : Fin 8) :
    iblk m c 0 t (ix2 p q) = V m c main_v1 (ix2 (rowAt t p) q) := by
  obtain ⟨e0, e1, -⟩ := idx_facts t
  show V m c main_v1 (((cfg0.win 0).blk t).view.emb (ix2 p q)) = V m c main_v1 (ix2 (rowAt t p) q)
  refine congrArg (V m c main_v1) (funext fun a => Fin.ext ?_)
  match a with
  | ⟨0, _⟩ => show win0_0.index t (0 : Fin 2) * 512 + 1 * p.val = t.val * 512 + p.val; omega
  | ⟨1, _⟩ => show win0_0.index t (1 : Fin 2) * 8 + 1 * q.val = q.val; omega

theorem rd1 (c : Dev nD) (t : Fin cfg0.N) (q : Fin 8) :
    iblk m c 1 t (ix2 (0 : Fin 1) q) = V m c main_v2 (ix2 (0 : Fin 1) q) := by
  obtain ⟨-, -, e0, e1, -⟩ := idx_facts t
  show V m c main_v2 (((cfg0.win 1).blk t).view.emb (ix2 (0 : Fin 1) q)) = V m c main_v2 (ix2 (0 : Fin 1) q)
  refine congrArg (V m c main_v2) (funext fun a => Fin.ext ?_)
  match a with
  | ⟨0, _⟩ => show win0_1.index t (0 : Fin 2) * 1 + 1 * 0 = 0; omega
  | ⟨1, _⟩ => show win0_1.index t (1 : Fin 2) * 8 + 1 * q.val = q.val; omega

theorem rd2 (c : Dev nD) (t : Fin cfg0.N) (q : Fin 8) (f : Fin 3072) :
    iblk m c 2 t (ix2 q f) = V m c main_v4 (ix2 q f) := by
  obtain ⟨-, -, -, -, e0, e1, -⟩ := idx_facts t
  show V m c main_v4 (((cfg0.win 2).blk t).view.emb (ix2 q f)) = V m c main_v4 (ix2 q f)
  refine congrArg (V m c main_v4) (funext fun a => Fin.ext ?_)
  match a with
  | ⟨0, _⟩ => show win0_2.index t (0 : Fin 2) * 8 + 1 * q.val = q.val; omega
  | ⟨1, _⟩ => show win0_2.index t (1 : Fin 2) * 3072 + 1 * f.val = f.val; omega

theorem rd3 (c : Dev nD) (t : Fin cfg0.N) (f : Fin 3072) :
    iblk m c 3 t (ix2 (0 : Fin 1) f) = V m c main_v5 (ix2 (0 : Fin 1) f) := by
  obtain ⟨-, -, -, -, -, -, e0, e1, -⟩ := idx_facts t
  show V m c main_v5 (((cfg0.win 3).blk t).view.emb (ix2 (0 : Fin 1) f)) = V m c main_v5 (ix2 (0 : Fin 1) f)
  refine congrArg (V m c main_v5) (funext fun a => Fin.ext ?_)
  match a with
  | ⟨0, _⟩ => show win0_3.index t (0 : Fin 2) * 1 + 1 * 0 = 0; omega
  | ⟨1, _⟩ => show win0_3.index t (1 : Fin 2) * 3072 + 1 * f.val = f.val; omega

theorem rd4 (c : Dev nD) (t : Fin cfg0.N) (f : Fin 3072) (e : Fin 768) :
    iblk m c 4 t (ix2 f e) = V m c main_v7 (ix2 f e) := by
  obtain ⟨-, -, -, -, -, -, -, -, e0, e1, -⟩ := idx_facts t
  show V m c main_v7 (((cfg0.win 4).blk t).view.emb (ix2 f e)) = V m c main_v7 (ix2 f e)
  refine congrArg (V m c main_v7) (funext fun a => Fin.ext ?_)
  match a with
  | ⟨0, _⟩ => show win0_4.index t (0 : Fin 2) * 3072 + 1 * f.val = f.val; omega
  | ⟨1, _⟩ => show win0_4.index t (1 : Fin 2) * 768 + 1 * e.val = e.val; omega

theorem rd5 (c : Dev nD) (t : Fin cfg0.N) (e : Fin 768) :
    iblk m c 5 t (ix2 (0 : Fin 1) e) = V m c main_v8 (ix2 (0 : Fin 1) e) := by
  obtain ⟨-, -, -, -, -, -, -, -, -, -, e0, e1, -⟩ := idx_facts t
  show V m c main_v8 (((cfg0.win 5).blk t).view.emb (ix2 (0 : Fin 1) e)) = V m c main_v8 (ix2 (0 : Fin 1) e)
  refine congrArg (V m c main_v8) (funext fun a => Fin.ext ?_)
  match a with
  | ⟨0, _⟩ => show win0_5.index t (0 : Fin 2) * 1 + 1 * 0 = 0; omega
  | ⟨1, _⟩ => show win0_5.index t (1 : Fin 2) * 768 + 1 * e.val = e.val; omega

/-! ## What a point writes back -/

/-- Entry (p, e) of the output window's block at point t is entry (512·t + p, e) of the array. -/
theorem emb6 (t : Fin cfg0.N) (p : Fin 512) (e : Fin 768) :
    ((cfg0.win 6).blk t).view.emb (ix2 p e) = ix2 (rowAt t p) e := by
  obtain ⟨-, -, -, -, -, -, -, -, -, -, -, -, e0, e1⟩ := idx_facts t
  refine funext fun a => Fin.ext ?_
  match a with
  | ⟨0, _⟩ => show win0_6.index t (0 : Fin 2) * 512 + 1 * p.val = t.val * 512 + p.val; omega
  | ⟨1, _⟩ => show win0_6.index t (1 : Fin 2) * 768 + 1 * e.val = e.val; omega

/-- WHAT POINT t WRITES BACK is block t of `Y`. -/
theorem flushed_eq (c : Dev nD) (t : Fin cfg0.N) :
    (dats m 0 c).flushed 6 t = ((cfg0.win 6).blk t).view.read (Elt Ideal) (Y m c) := by
  show (cfg0.win 6).cut (grid0.coords t) ((dats m 0 c).after 6 t) = _
  rw [after0_6]
  unfold out0_6
  rw [View.canon_unit_zero hz]
  simp only [View.ld_unit_zero (S := S512x8) hz, View.ld_unit_zero (S := S1x8) hz, View.ld_unit_zero (S := S8x3072) hz,
    View.ld_unit_zero (S := S1x3072) hz, View.ld_unit_zero (S := S3072x768) hz, View.ld_unit_zero (S := S1x768) hz]
  funext j
  obtain ⟨p, e, rfl⟩ : ∃ (p : Fin 512) (e : Fin 768), j = ix2 p e := ⟨j 0, j 1, eq_ix2 j⟩
  show k0_pay1 (iblk m c 0 t) (iblk m c 1 t) (iblk m c 2 t) (iblk m c 3 t) (iblk m c 4 t) (iblk m c 5 t) (ix2 p e)
    = Y m c (((cfg0.win 6).blk t).view.emb (ix2 p e))
  refine (Cert.Mlp.Body.pay_apply (iblk m c 0 t) (iblk m c 1 t) (iblk m c 2 t) (iblk m c 3 t) (iblk m c 4 t) (iblk m c 5 t) p e).trans ?_
  rw [emb6, Y_apply]
  exact Cert.Mlp.rows_congr (iblk m c 0 t) (V m c main_v1) (iblk m c 1 t) (V m c main_v2) (iblk m c 2 t) (V m c main_v4)
    (iblk m c 3 t) (V m c main_v5) (iblk m c 4 t) (V m c main_v7) (iblk m c 5 t) (V m c main_v8) p (rowAt t p) e
    (fun q => rd0 m c t p q) (fun q => rd1 m c t q) (fun q f => rd2 m c t q f) (fun f => rd3 m c t f)
    (fun f e => rd4 m c t f e) (fun e => rd5 m c t e)

/-! ## The blocks tile the array -/

theorem mem_blk (t : Fin cfg0.N) (i : S16384x768.Idx) :
    i ∈ ((cfg0.win 6).blk t).view.set ↔ ∀ a : Fin 2, win0_6.index t a * S512x768.size a ≤ (i a).val ∧ (i a).val < win0_6.index t a * S512x768.size a + S512x768.size a := by
  show i ∈ ((View.whole main_v9).slice (win0_6.rect t)).set ↔ _
  rw [View.set_slice_whole, Rect.mem_set_unit]
  exact Iff.rfl

/-- Row r lies in the block of point r / 512. -/
theorem cover (i : S16384x768.Idx) :
    ∃ t : Fin cfg0.N, (cfg0.win 6).flush t = true ∧ i ∈ ((cfg0.win 6).blk t).view.set := by
  have hi0 : (i 0).val < 16384 := (i 0).isLt
  have hi1 : (i 1).val < 768 := (i 1).isLt
  obtain ⟨t, ht⟩ : ∃ t : Fin cfg0.N, t.val = (i 0).val / 512 :=
    ⟨⟨(i 0).val / 512, lt_of_lt_of_eq (by omega : (i 0).val / 512 < 32) N_0.symm⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 768 ≤ (i 1).val ∧ (i 1).val < win0_6.index t (1 : Fin 2) * 768 + 768; omega

/-- THE OUTPUT ARRAY after the launch is `Y`. -/
theorem final (c : Dev nD) : (dats m 0 c).arrAt 6 cfg0.N = Y m c :=
  (dats m 0 c).arrAt_eq_of_cover 6 (Y m c) (fun t _ => flushed_eq m c t) cover

end Cert.Mlp.Blocks

end
-- ==== Proof.Tail.lean ====
/-
  The kernel program's result, and its run.

  After the launch the program reshapes the 16384 × 768 output matrix back to 8 × 2048 × 768: entry
  (b, s, e) of the result is entry (`row b s`, e) of the matrix. The matrix is `rows` of the staged
  arrays (the blocks module), and the staged arrays are the caller's arrays re-laid (the host-side
  module), so the result is `tok` at (b, s, e): the array `G` of the six arguments.
-/
import proofs.«174003_j65481071398154_2_alg».proof.Proof.Gen.KernelIdeal.Frame
import proofs.«174003_j65481071398154_2_alg».proof.Proof.Spec
import proofs.«174003_j65481071398154_2_alg».proof.Proof.HostSide
import proofs.«174003_j65481071398154_2_alg».proof.Proof.Blocks
import Idealize.ShloMosaic.Lib.Pipeline.Value
import Idealize.ShloMosaic.Lib.ValueIdx
import Idealize.ShloMosaic.Lib.StableHlo.Run

noncomputable section

namespace Cert.Mlp.Tail

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The output matrix at row `row b s` is the layer at token (b, s), over the caller's arrays. -/
theorem Y_row (c : Dev nD) (b : Fin 8) (s : Fin 2048) (e : Fin 768) :
    Cert.Mlp.Blocks.Y m c (ix2 (Cert.Mlp.row b s) e)
      = Cert.Mlp.tok (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s e := by
  rw [Cert.Mlp.Blocks.Y_apply]
  exact Cert.Mlp.rows_eq_tok (V m c main_v1) (V m c main_v2) (V m c main_v4) (V m c main_v5) (V m c main_v7) (V m c main_v8)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (Cert.Mlp.row b s) b s e
    (fun q => Cert.Mlp.Host.x_at m c b s q) (fun q => Cert.Mlp.Host.phi_at m c q) (fun q f => Cert.Mlp.Host.w1_at m c q f)
    (fun f => Cert.Mlp.Host.b1_at m c f) (fun f e => Cert.Mlp.Host.w2_at m c f e) (fun e => Cert.Mlp.Host.b2_at m c e)

/-- The launch's output array, as the lines after the launch find it, is `Y`. -/
theorem out_arr (c : Dev nD) :
    Pipeline.withArrays spec0 c (V0 m c) (fun w => (dats m 0 c).arrAt w cfg0.N) (Proc.devRef .tc main_v9) = Cert.Mlp.Blocks.Y m c :=
  (Pipeline.withArrays_arr spec0 launch0.win.arr_inj c _ _ 6).trans (Cert.Mlp.Blocks.final m c)

/-- The program's result buffer after the run is `G` of the arguments. -/
theorem result_eq (c : Dev nD) :
    Pipeline.afterTail₀ cfgs (dats m) 0 (V0 m) [hostOps1] c main_v10
      = Cert.Mlp.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after (hostOps1 (F := Ideal)) _ (Proc.devRef .tc main_v10) = _
  after_results
  funext i
  obtain ⟨b, s, e, rfl⟩ : ∃ (b : Fin 8) (s : Fin 2048) (e : Fin 768), i = ix3 b s e := ⟨i 0, i 1, i 2, eq_ix3 i⟩
  show shapeCast S8x2048x768 (Pipeline.withArrays spec0 c (V0 m c) (fun w => (dats m 0 c).arrAt w cfg0.N) (Proc.devRef .tc main_v9))
      shapeCasts_S16384x768_S8x2048x768 (ix3 b s e) = _
  rw [out_arr, Cert.Mlp.G_apply]
  refine (shapeCast_apply (Cert.Mlp.Blocks.Y m c) shapeCasts_S16384x768_S8x2048x768 (ix3 b s e) (ix2 (Cert.Mlp.row b s) e) ?_).trans
    (Y_row m c b s e)
  rw [Shape.rowMajor_val_two, Shape.rowMajor_val_three]
  rfl

/-- The kernel program's run: every weakly fair execution terminates with the result buffer at `G` of the
    arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v10)
        = Cert.Mlp.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Mlp.Tail

end
-- ==== Proof.lean ====
/-
  A two-layer perceptron on eight cosine measurements per token, against its array-level reference.

  For a token (b, s) both programs compute, for every output feature e,
      Σ_f  max (Σ_q cos (x[b,s,q] + phi[q]) · w1[f,q] + b1[f]) 0 · w2[e,f]  +  b2[e]
  over the first eight input features q and the 3072 hidden units f. The kernel program slices and
  re-lays its inputs (tokens as 16384 rows, weights transposed, vectors as rows), runs a grid of 32
  points, each producing 512 rows by two matrix products into zero accumulators, and reshapes the
  result back; the reference writes the same two contractions on the three-dimensional arrays. On the
  extended reals the changes of float format are the identity, a product into a zero accumulator is
  the plain sum, and both sides form the same sums of the same products in the same order, so the
  two results agree entry by entry for all inputs: the finiteness precondition is never opened.

  The modules: `Spec` states the function (`rows` over the re-laid arrays, `tok` / `G` over the
  caller's arrays, and their agreement); `RefValue` reads the reference's stages at an index and
  finds `G`; `Payload` reads the kernel body's stored block at an entry and finds `rows`;
  `HostSide` reads the re-laid arrays at an index; `Blocks` shows each grid point writes its block of
  one matrix and that the 32 blocks tile it; `Tail` reads the final reshape and states the kernel
  program's run. Here the five claims are assembled.
-/
import proofs.«174003_j65481071398154_2_alg».proof.Defs
import proofs.«174003_j65481071398154_2_alg».proof.Proof.Gen.Kernel
import proofs.«174003_j65481071398154_2_alg».proof.Proof.Gen.Kernel.Skeleton
import proofs.«174003_j65481071398154_2_alg».proof.Proof.Gen.Kernel.Launch
import proofs.«174003_j65481071398154_2_alg».proof.Proof.Gen.Kernel.Points
import proofs.«174003_j65481071398154_2_alg».proof.Proof.Gen.Kernel.Frame
import proofs.«174003_j65481071398154_2_alg».proof.Proof.Gen.KernelIdeal
import proofs.«174003_j65481071398154_2_alg».proof.Proof.Gen.KernelIdeal.Skeleton
import proofs.«174003_j65481071398154_2_alg».proof.Proof.Gen.KernelIdeal.Launch
import proofs.«174003_j65481071398154_2_alg».proof.Proof.Gen.KernelIdeal.Points
import proofs.«174003_j65481071398154_2_alg».proof.Proof.Gen.KernelIdeal.Frame
import proofs.«174003_j65481071398154_2_alg».proof.Proof.Gen.ReferenceIdeal
import proofs.«174003_j65481071398154_2_alg».proof.Proof.Gen.ReferenceIdeal.Run
import proofs.«174003_j65481071398154_2_alg».proof.Proof.Gen.ReferenceIdeal.Read
import proofs.«174003_j65481071398154_2_alg».proof.Proof.Gen.Pre_finite_inputs
import proofs.«174003_j65481071398154_2_alg».proof.Proof.Spec
import proofs.«174003_j65481071398154_2_alg».proof.Proof.RefValue
import proofs.«174003_j65481071398154_2_alg».proof.Proof.Tail
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with their result at `G` of the arguments: the kernel program by its run, the
    reference by its run, its last stage being `G`, at arguments that agree. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.Mlp.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v13_eq _ _ _ _ _ _).trans (Cert.Mlp.Ref.stage_eq _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
